-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x64 : Shape := ⟨2, ![2097152, 64]⟩
abbrev S64x64 : Shape := ⟨2, ![64, 64]⟩
abbrev S64 : Shape := ⟨1, ![64]⟩
abbrev S_ : Shape := ⟨0, ![]⟩

class Facts : Prop where
  bcast_S_S2097152x64 : S_.BroadcastsInDim S2097152x64 (![] : Fin 0 → Fin S2097152x64.rank)
  reducesTo_S2097152x64_S_d0_1 : S2097152x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S2097152x64 .f32) (main_arg1 : FVec F S64x64 .f32) (main_arg2 : FVec F S64 .f32) (main_arg3 : FVec F S64 .f32) (main_arg4 : IVec S64 32) : IVec S_ 1 :=
  let main_v0 : FVec F S2097152x64 .f32 := Host.absf main_arg0
  let main_cst : FVec F S_ .f32 := constant S_ .f32 0x7F800000#32
  let main_v1 : FVec F S2097152x64 .f32 := broadcastInDim S2097152x64 ![] bcast_S_S2097152x64 main_cst
  let main_v2 : IVec S2097152x64 1 := cmpf .olt main_v0 main_v1
  let main_c : IVec S_ 1 := constantI S_ 1 1#1
  let main_v3 : IVec S_ 1 := (fun x v => Host.reduce IntOp.andi x v reducesTo_S2097152x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S2097152x64 : Shape := ⟨2, ![2097152, 64]⟩
abbrev S64x64 : Shape := ⟨2, ![64, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S128x128 : Shape := ⟨2, ![128, 128]⟩
abbrev S1 : Shape := ⟨1, ![1]⟩
abbrev S2 : Shape := ⟨1, ![2]⟩
abbrev S128 : Shape := ⟨1, ![128]⟩
abbrev S1x128 : Shape := ⟨2, ![1, 128]⟩
abbrev S1048576x128 : Shape := ⟨2, ![1048576, 128]⟩
abbrev S16384x128 : Shape := ⟨2, ![16384, 128]⟩

abbrev nBuf : Space → Nat
  | .hbm => 54
  | .vmem => 6
  | .smem => 0
  | _ => 0

abbrev bufTy : (tb : Table) → Fin (tcTables nBuf tb) → BufTy
  | .hbm, ⟨0, _⟩ => ⟨S2097152x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x64, .f32⟩
  | .hbm, ⟨22, _⟩ => ⟨S1x64, .f32⟩
  | .hbm, ⟨23, _⟩ => ⟨S64x64, .f32⟩
  | .hbm, ⟨24, _⟩ => ⟨S64x64, .f32⟩
  | .hbm, ⟨25, _⟩ => ⟨S_, .i32⟩
  | .hbm, ⟨26, _⟩ => ⟨S64, .i32⟩
  | .hbm, ⟨27, _⟩ => ⟨S64, .i1⟩
  | .hbm, ⟨28, _⟩ => ⟨S1x64, .i1⟩
  | .hbm, ⟨29, _⟩ => ⟨S_, .f32⟩
  | .hbm, ⟨30, _⟩ => ⟨S_, .f32⟩
  | .hbm, ⟨31, _⟩ => ⟨S64x64, .i1⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S128x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S128x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S128x128, .f32⟩
  | .hbm, ⟨49, _⟩ => ⟨S128, .f32⟩
  | .hbm, ⟨50, _⟩ => ⟨S1x128, .f32⟩
  | .hbm, ⟨51, _⟩ => ⟨S1048576x128, .f32⟩
  | .hbm, ⟨52, _⟩ => ⟨S1048576x128, .f32⟩
  | .hbm, ⟨53, _⟩ => ⟨S2097152x64, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S16384x128, .f32⟩
  | .local _ .vmem, ⟨5, _⟩ => ⟨S16384x128, .f32⟩
  | _, _ => ⟨S2097152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_c_8 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  transposes_S64x64_S64x64_1_0 : S64x64.Transposes [1, 0] S64x64
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  concatenates_S64_S64_S128_d0 : Shape.Concatenates [S64, S64] S128 0
  shapeCasts_S128_S1x128 : S128.ShapeCasts S1x128
  shapeCasts_S2097152x64_S1048576x128 : S2097152x64.ShapeCasts S1048576x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  shapeCasts_S1048576x128_S2097152x64 : S1048576x128.ShapeCasts S2097152x64
  gather_S64x64_S64x1_S64x64_0_1_n_n_1_1_641_wf : GatherDims.WF S64x64 S64x1 S64x64 [0] [1] [] [1] [] 1 ![64, 1]
  scatter_S128x128_S2_S64x64_01_n_01_0_wf : ScatterDims.WF S128x128 S2 S64x64 [0, 1] [] [0, 1] 0
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1048576x128.size a
  hwx0_0 : ∀ i : grid0.Coords, EltTy.bits .f32 = 32 ∨ (Rect.block (s := S1048576x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S1048576x128.size a
  hwx0_3 : ∀ i : grid0.Coords, EltTy.bits .f32 = 32 ∨ (Rect.block (s := S1048576x128) S16384x128.size (cc0_transform_3 i) (hinb0_3 i)).WholeWords (EltTy.packing .f32)

variable [Facts₀]

def gather_S64x64_S64x1_S64x64_0_1_n_n_1_1_641 : GatherDims S64x64 S64x1 S64x64 where
  offsetDims := [0]
  collapsedSliceDims := [1]
  operandBatchingDims := []
  startIndicesBatchingDims := []
  startIndexMap := [1]
  indexVectorDim := 1
  sliceSizes := ![64, 1]
  wf := gather_S64x64_S64x1_S64x64_0_1_n_n_1_1_641_wf
def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v27) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097152x64 : Shape := ⟨2, ![2097152, 64]⟩
abbrev S64x64 : Shape := ⟨2, ![64, 64]⟩
abbrev S64 : Shape := ⟨1, ![64]⟩
abbrev S_ : Shape := ⟨0, ![]⟩
abbrev S64x1 : Shape := ⟨2, ![64, 1]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S2097152x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x64, .f32⟩
  | .hbm, ⟨22, _⟩ => ⟨S1x64, .f32⟩
  | .hbm, ⟨23, _⟩ => ⟨S64x64, .f32⟩
  | .hbm, ⟨24, _⟩ => ⟨S64x64, .f32⟩
  | .hbm, ⟨25, _⟩ => ⟨S_, .i32⟩
  | .hbm, ⟨26, _⟩ => ⟨S64, .i32⟩
  | .hbm, ⟨27, _⟩ => ⟨S64, .i1⟩
  | .hbm, ⟨28, _⟩ => ⟨S1x64, .i1⟩
  | .hbm, ⟨29, _⟩ => ⟨S_, .f32⟩
  | .hbm, ⟨30, _⟩ => ⟨S_, .f32⟩
  | .hbm, ⟨31, _⟩ => ⟨S64x64, .i1⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S2097152x64, .f32⟩
  | .hbm, ⟨36, _⟩ => ⟨S1x64, .f32⟩
  | .hbm, ⟨37, _⟩ => ⟨S2097152x64, .f32⟩
  | .hbm, ⟨38, _⟩ => ⟨S2097152x64, .f32⟩
  | _, _ => ⟨S2097152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  transposes_S64x64_S64x64_1_0 : S64x64.Transposes [1, 0] S64x64
  bcast_S1x64_S2097152x64_0_1 : S1x64.BroadcastsInDim S2097152x64 (![0, 1] : Fin 2 → Fin S2097152x64.rank)
  gather_S64x64_S64x1_S64x64_0_1_n_n_1_1_641_wf : GatherDims.WF S64x64 S64x1 S64x64 [0] [1] [] [1] [] 1 ![64, 1]
  dot_S2097152x64_S64x64_S2097152x64_1_0_0_1_n_n_wf : DotDims.WF S2097152x64 S64x64 S2097152x64 [1] [0] [0] [1] [] []

variable [Facts₀]

def gather_S64x64_S64x1_S64x64_0_1_n_n_1_1_641 : GatherDims S64x64 S64x1 S64x64 where
  offsetDims := [0]
  collapsedSliceDims := [1]
  operandBatchingDims := []
  startIndicesBatchingDims := []
  startIndexMap := [1]
  indexVectorDim := 1
  sliceSizes := ![64, 1]
  wf := gather_S64x64_S64x1_S64x64_0_1_n_n_1_1_641_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf

class Facts : Prop extends Facts₀ where

variable [Facts]
-- ==== Proof.KernelEntry.lean ====
/-
  The three arrays the kernel's region is launched on, as functions of the program's arguments.

  Before the region the program computes, on the host: the transposed effective weight `wt` (a column gather of the
  weight by the clipped permutation, scaled by the signs, masked where the permutation holds the zero code, then
  transposed); the 128 × 128 matrix `wb` — zero, with `wt` set at rows and columns 0…63 and again at rows and
  columns 64…127; the bias written twice as one row of 128; and `x` recast from 2097152 × 64 to 1048576 × 128
  (row-major, so packed row `k` is rows `2k` and `2k + 1` of `x`). Each is read off the host operations' run.
-/
import proofs.«123171_j58351425683886_2_alg».proof.Proof.Gen.KernelIdeal.Frame
import Idealize.ShloMosaic.Lib.StableHlo.Run
import Idealize.ShloMosaic.Lib.Pipeline.Value
import Idealize.ShloMosaic.PureOps.Ideal.Laws
import Idealize.ShloMosaic.Lib.ValueIdx

noncomputable section

namespace Cert.KernelIdeal.Entry

open Cert.KernelIdeal Cert.KernelIdeal.Gen Idealize.ShloMosaic Idealize.ShloMosaic.TcCoe Idealize.SL.Sem Idealize.ShloMosaic.StableHlo

/-- The transposed effective weight: entry `(i, o)` is `0` where `perm i` is the zero code, else
    `signs i · weight (o, clip (perm i))`. -/
def wtOf (w : FVec Ideal S64x64 .f32) (sg : FVec Ideal S64 .f32) (pm : IVec S64 32) : FVec Ideal S64x64 .f32 :=
  transpose S64x64 [1, 0] (select (broadcastInDim S64x64 ![0, 1] bcast_S1x64_S64x64_0_1 (broadcastInDim S1x64 ![1] bcast_S64_S1x64_1 (cmpi .eq pm (broadcastInDim S64 ![] bcast_S_S64 (constantI S_ 32 666#32))))) (broadcastInDim S64x64 ![] bcast_S_S64x64 (id (constant (F := Ideal) S_ .f32 0x00000000#32))) (mulf (Host.gather gather_S64x64_S64x1_S64x64_0_1_n_n_1_1_641 w (broadcastInDim S64x1 ![0] bcast_S64_S64x1_0 (select (cmpi .slt (minsi (broadcastInDim S64 ![] bcast_S_S64 (id (constantI S_ 32 63#32))) (maxsi (broadcastInDim S64 ![] bcast_S_S64 (id (constantI S_ 32 0#32))) pm)) (broadcastInDim S64 ![] bcast_S_S64 (constantI S_ 32 0#32))) (addi (minsi (broadcastInDim S64 ![] bcast_S_S64 (id (constantI S_ 32 63#32))) (maxsi (broadcastInDim S64 ![] bcast_S_S64 (id (constantI S_ 32 0#32))) pm)) (broadcastInDim S64 ![] bcast_S_S64 (constantI S_ 32 64#32))) (minsi (broadcastInDim S64 ![] bcast_S_S64 (id (constantI S_ 32 63#32))) (maxsi (broadcastInDim S64 ![] bcast_S_S64 (id (constantI S_ 32 0#32))) pm))))) (broadcastInDim S64x64 ![0, 1] bcast_S1x64_S64x64_0_1 (broadcastInDim S1x64 ![1] bcast_S64_S1x64_1 sg)))) transposes_S64x64_S64x64_1_0

/-- The start words `(v, v)` of a block set at row and column `v`. -/
def startAt (v : BitVec 32) : IVec S2 32 :=
  concatenate S2 0 [⟨S1, broadcastInDim S1 ![] bcast_S_S1 (constantI S_ 32 v)⟩, ⟨S1, broadcastInDim S1 ![] bcast_S_S1 (constantI S_ 32 v)⟩] concatenates_S1_S1_S2_d0

/-- The block-diagonal matrix: zero, then `wt` set at (0, 0), then `wt` set at (64, 64). -/
def wbOf (wt : FVec Ideal S64x64 .f32) : FVec Ideal S128x128 .f32 :=
  Host.scatter scatter_S128x128_S2_S64x64_01_n_01_0 (fun _ b => b)
    (Host.scatter scatter_S128x128_S2_S64x64_01_n_01_0 (fun _ b => b)
      (broadcastInDim S128x128 ![] bcast_S_S128x128 (constant (F := Ideal) S_ .f32 0x00000000#32)) (startAt 0#32) wt)
    (startAt 64#32) wt

/-- The bias twice, as one row. -/
def bpOf (b : FVec Ideal S64 .f32) : FVec Ideal S1x128 .f32 :=
  shapeCast S1x128 (concatenate S128 0 [⟨S64, b⟩, ⟨S64, b⟩] concatenates_S64_S64_S128_d0) shapeCasts_S128_S1x128

/-- The rows of `x` two by two. -/
def xpOf (x : FVec Ideal S2097152x64 .f32) : FVec Ideal S1048576x128 .f32 :=
  shapeCast S1048576x128 x shapeCasts_S2097152x64_S1048576x128

variable (m : (ℓ : Loc nD τ sig) → Buf (Elt Ideal) ℓ)

theorem V_v27 (c : Dev nD) : (V m c main_v27 : S1048576x128.Idx → EReal) = xpOf (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem V_v26 (c : Dev nD) : (V m c main_v26 : S1x128.Idx → EReal) = bpOf (m ((c : Thread nD τ).loc main_arg2)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem V_v24 (c : Dev nD) : (V m c main_v24 : S128x128.Idx → EReal)
    = wbOf (wtOf (m ((c : Thread nD τ).loc main_arg1)) (m ((c : Thread nD τ).loc main_arg3)) (m ((c : Thread nD τ).loc main_arg4))) := by
  unfold wbOf wtOf startAt
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

end Cert.KernelIdeal.Entry

end
-- ==== Proof.PackedDense.lean ====
/-
  A dense layer computed on rows packed two by two.

  For an array `x` of 2097152 rows of 64 entries, a 64 × 64 matrix `wt` and a bias vector `b` of 64 entries, the
  dense layer is  dense x wt b (r, o) = ∑ k, x (r, k) · wt (k, o) + b (o).

  The packed computation works on 1048576 rows of 128 entries: packed row `k` is row `2k` of `x` followed by row
  `2k + 1`; the 128 × 128 matrix `wb` carries `wt` on its two diagonal 64 × 64 blocks and zero elsewhere; the bias
  row `bp` is `b` twice. Then entry `(k, 64 h' + o)` of  xp · wb + bp  is entry `(2k + h', o)` of the dense layer:
  the sum over the 128 positions splits into the two halves `64 h + i`; in the half `h ≠ h'` every term is a product
  with zero, and on the extended reals `a · 0 = 0` for every `a`, so that half contributes `0`; the other half is
  the dense layer's sum. No entry needs to be finite.
-/
import Idealize.ShloMosaic.Lib.ValueIdx
import Idealize.ShloMosaic.PureOps.Ideal.Laws

noncomputable section

open scoped BigOperators

namespace Cert.PackedDense

open Idealize.ShloMosaic Idealize.ShloMosaic.ValueIdx

/-- Position `64 h + i` of a packed row: half `h`, entry `i`. -/
def half (h : Fin 2) (i : Fin 64) : Fin 128 := ⟨h.val * 64 + i.val, by have := h.isLt; have := i.isLt; omega⟩

/-- Row `2 k + h` of the unpacked array: the row that half `h` of packed row `k` holds. -/
def pairRow (k : Fin 1048576) (h : Fin 2) : Fin 2097152 := ⟨2 * k.val + h.val, by have := h.isLt; have := k.isLt; omega⟩

/-- The dense layer: entry `(r, o)` is `∑ k, x (r, k) · wt (k, o) + b o`. -/
def dense (x : FVec Ideal ⟨2, ![2097152, 64]⟩ .f32) (wt : FVec Ideal ⟨2, ![64, 64]⟩ .f32) (b : FVec Ideal ⟨1, ![64]⟩ .f32) :
    FVec Ideal ⟨2, ![2097152, 64]⟩ .f32 :=
  fun i => (∑ k : Fin 64, x (ix2 (i 0) k) * wt (ix2 k (i 1))) + b (ix1 (i 1))

/-- The packed layer: entry `(k, c)` is `∑ j, xp (k, j) · wb (j, c) + bp (0, c)`. -/
def packed (xp : FVec Ideal ⟨2, ![1048576, 128]⟩ .f32) (wb : FVec Ideal ⟨2, ![128, 128]⟩ .f32) (bp : FVec Ideal ⟨2, ![1, 128]⟩ .f32) :
    FVec Ideal ⟨2, ![1048576, 128]⟩ .f32 :=
  fun i => (∑ j : Fin 128, xp (ix2 (i 0) j) * wb (ix2 j (i 1))) + bp (ix2 (0 : Fin 1) (i 1))

/-- A sum over the 128 positions of a packed row is the sum over its two halves. -/
theorem sum_halves (f : Fin 128 → EReal) : (∑ j : Fin 128, f j) = (∑ i : Fin 64, f (half 0 i)) + ∑ i : Fin 64, f (half 1 i) := by
  have h := Fin.sum_univ_add (M := EReal) (a := 64) (b := 64) f
  exact h.trans (congrArg₂ (· + ·)
    (Finset.sum_congr rfl fun i _ => congrArg f (Fin.ext (by show i.val = 0 * 64 + i.val; omega)))
    (Finset.sum_congr rfl fun i _ => congrArg f (Fin.ext (by show 64 + i.val = 1 * 64 + i.val; omega))))

/-- Entry `(k, 64 h' + o)` of the packed layer is entry `(2k + h', o)` of the dense layer, when `xp` holds the rows
    of `x` two by two, `wb` holds `wt` on its diagonal blocks and zero off them, and `bp` holds `b` twice. -/
theorem packed_eq_dense (x : FVec Ideal ⟨2, ![2097152, 64]⟩ .f32) (wt : FVec Ideal ⟨2, ![64, 64]⟩ .f32) (b : FVec Ideal ⟨1, ![64]⟩ .f32)
    (xp : FVec Ideal ⟨2, ![1048576, 128]⟩ .f32) (wb : FVec Ideal ⟨2, ![128, 128]⟩ .f32) (bp : FVec Ideal ⟨2, ![1, 128]⟩ .f32)
    (hx : ∀ (k : Fin 1048576) (h : Fin 2) (i : Fin 64), xp (ix2 k (half h i)) = x (ix2 (pairRow k h) i))
    (hw : ∀ (h h' : Fin 2) (i o : Fin 64), wb (ix2 (half h i) (half h' o)) = if h = h' then wt (ix2 i o) else 0)
    (hb : ∀ (h' : Fin 2) (o : Fin 64), bp (ix2 (0 : Fin 1) (half h' o)) = b (ix1 o))
    (k : Fin 1048576) (h' : Fin 2) (o : Fin 64) :
    packed xp wb bp (ix2 k (half h' o)) = dense x wt b (ix2 (pairRow k h') o) := by
  show (∑ j : Fin 128, xp (ix2 k j) * wb (ix2 j (half h' o))) + bp (ix2 (0 : Fin 1) (half h' o))
    = (∑ i : Fin 64, x (ix2 (pairRow k h') i) * wt (ix2 i o)) + b (ix1 o)
  rw [hb, sum_halves]
  congr 1
  have key : ∀ h : Fin 2, (∑ i : Fin 64, xp (ix2 k (half h i)) * wb (ix2 (half h i) (half h' o)))
      = if h = h' then ∑ i : Fin 64, x (ix2 (pairRow k h) i) * wt (ix2 i o) else 0 := by
    intro h
    by_cases e : h = h'
    · rw [if_pos e]
      exact Finset.sum_congr rfl fun i _ => by rw [hx, hw, if_pos e]
    · rw [if_neg e]
      exact Finset.sum_eq_zero fun i _ => by rw [hw, if_neg e, mul_zero]
  rw [key 0, key 1]
  have h2 : h' = 0 ∨ h' = 1 := by
    rcases h' with ⟨v, hv⟩
    rcases v with _ | _ | v
    · exact Or.inl rfl
    · exact Or.inr rfl
    · omega
  rcases h2 with rfl | rfl
  · rw [if_pos rfl, if_neg (by decide), add_zero]
  · rw [if_neg (by decide), if_pos rfl, zero_add]

end Cert.PackedDense

end
-- ==== Proof.LibScatter.lean ====
/-
  `stablehlo.scatter` whose body returns the update (`x.at[…].set(v)`), read at ONE operand index.

  The scatter is a left fold over the update positions in row-major order; each step overwrites the operand
  element its update lands on and leaves every other element alone. So at an operand index `i'`:
  * if no update lands on `i'`, the result there is the operand's element (`Host.scatter_apply_of_miss`,
    for any body);
  * if exactly one update index `j` lands on `i'` and the body returns the update, the result there is
    `upd j` (`Host.scatter_apply_of_hit`).
  Both are proved for the fold over an arbitrary list of positions first, by induction on the list.
-/
import Idealize.ShloMosaic.PureOps.ShapeOps

namespace Idealize.ShloMosaic

variable {s si u : Shape} {α : Type} {w : Nat}

/-- The fold over any list of update positions leaves operand index `i'` alone when no listed update lands on it. -/
theorem Host.scatter_fold_miss (d : ScatterDims s si u) (f : α → α → α) (idx : IVec si w) (upd : u.Idx → α) (i' : s.Idx) :
    ∀ (l : List (Fin u.numel)) (x : s.Idx → α),
      (∀ n ∈ l, d.resultIdx? (u.rowMajor.symm n) idx ≠ some i') →
      (l.foldl (fun r n =>
        match d.resultIdx? (u.rowMajor.symm n) idx with
        | some i => fun i' => if i' = i then f (r i) (upd (u.rowMajor.symm n)) else r i'
        | none => r) x) i' = x i' := by
  intro l
  induction l with
  | nil => intro x _; rfl
  | cons a l ih =>
    intro x h
    rw [List.foldl_cons, ih _ (fun n hn => h n (List.mem_cons_of_mem _ hn))]
    have ha := h a (List.mem_cons_self ..)
    generalize d.resultIdx? (u.rowMajor.symm a) idx = o at ha
    cases o with
    | none => rfl
    | some i => exact if_neg (fun e => ha (by rw [e]))

/-- The fold over a list of update positions that holds `n₀`, the only listed position landing on `i'`, ends at
    `n₀`'s update there, when the body returns the update. -/
theorem Host.scatter_fold_hit (d : ScatterDims s si u) (f : α → α → α) (hf : ∀ a b, f a b = b) (idx : IVec si w)
    (upd : u.Idx → α) (i' : s.Idx) (n₀ : Fin u.numel) (hn₀ : d.resultIdx? (u.rowMajor.symm n₀) idx = some i') :
    ∀ (l : List (Fin u.numel)) (x : s.Idx → α), n₀ ∈ l →
      (∀ n ∈ l, d.resultIdx? (u.rowMajor.symm n) idx = some i' → n = n₀) →
      (l.foldl (fun r n =>
        match d.resultIdx? (u.rowMajor.symm n) idx with
        | some i => fun i' => if i' = i then f (r i) (upd (u.rowMajor.symm n)) else r i'
        | none => r) x) i' = upd (u.rowMajor.symm n₀) := by
  intro l
  induction l with
  | nil => intro x hm; exact absurd hm (List.not_mem_nil)
  | cons a l ih =>
    intro x hm huniq
    rw [List.foldl_cons]
    by_cases hl : n₀ ∈ l
    · exact ih _ hl (fun n hn => huniq n (List.mem_cons_of_mem _ hn))
    · have ha : a = n₀ := ((List.mem_cons.1 hm).resolve_right hl).symm
      subst ha
      rw [Host.scatter_fold_miss d f idx upd i' l _
        (fun n hn hres => hl ((huniq n (List.mem_cons_of_mem _ hn) hres) ▸ hn))]
      rw [hn₀]
      show (if i' = i' then f (x i') (upd (u.rowMajor.symm a)) else x i') = _
      rw [if_pos rfl, hf]

/-- A scatter read at an operand index no update lands on: the operand's element. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  unfold Host.scatter
  exact Host.scatter_fold_miss d f idx upd i' _ x (fun n _ => h _)

/-- A scatter whose body returns the update, read at an operand index exactly one update index `j` lands on:
    that update. -/
theorem Host.scatter_apply_of_hit (d : ScatterDims s si u) (f : α → α → α) (hf : ∀ a b, f a b = b) (x : s.Idx → α)
    (idx : IVec si w) (upd : u.Idx → α) (i' : s.Idx) (j : u.Idx) (hj : d.resultIdx? j idx = some i')
    (huniq : ∀ j', d.resultIdx? j' idx = some i' → j' = j) :
    Host.scatter d f x idx upd i' = upd j := by
  unfold Host.scatter
  have h := Host.scatter_fold_hit d f hf idx upd i' (u.rowMajor j)
    (by rw [Equiv.symm_apply_apply]; exact hj) (List.finRange _) x (List.mem_finRange _)
    (fun n _ hn => by rw [← huniq _ hn, Equiv.apply_symm_apply])
  rw [Equiv.symm_apply_apply] at h
  exact h

end Idealize.ShloMosaic
-- ==== Proof.LibBlockSet.lean ====
/-
  A stablehlo.scatter that SETS a rectangular [a, b] block at a static offset (r0, c0) inside an [A, B] array
  (what x.at[r0:r0+a, c0:c0+b].set(u) lowers to: both update axes are window axes, no operand axis is inserted, the
  one scatter index is the length-2 vector (r0, c0), the body returns the update), read at coordinates.

  Update index (p, q) lands on operand index (r0 + p, c0 + q): the start is read signed off the index vector and
  is r0, c0 themselves below 2^31, and the whole window stays inside the operand, so no update is dropped and the
  map (p, q) ↦ (r0 + p, c0 + q) is injective. Hence inside the rectangle the result is the update at the
  translated index, and outside it the operand.
-/
import Idealize.ShloMosaic.Lib.ValueIdx
import Idealize.ShloMosaic.Lib.Pipeline.Value
import proofs.«123171_j58351425683886_2_alg».proof.Proof.LibScatter

namespace Idealize.ShloMosaic.BlockSet

open Idealize.ShloMosaic Idealize.ShloMosaic.ValueIdx

variable {α : Type}

/-- The dimension numbers of a block set: operand [A, B], one index vector of length 2, updates [a, b]; both update
    axes are window axes, none is inserted, start component c goes to operand axis c. -/
abbrev dims (A B a b : Nat) (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ :=
  { updateWindowDims := [0, 1], insertedWindowDims := [], scatterDimsToOperandDims := [0, 1], indexVectorDim := 0, wf := wf }

/-- A 32-bit word holding a natural below 2^31 reads, signed, as that natural. -/
theorem toInt_ofNat_of_lt (n : Nat) (h : n < 2 ^ 31) : (BitVec.ofNat 32 n).toInt = (n : Int) := by
  rw [BitVec.toInt_eq_toNat_cond, BitVec.toNat_ofNat]
  have : n % 2 ^ 32 = n := Nat.mod_eq_of_lt (by omega)
  rw [this]
  split <;> omega

section
variable {A B a b : Nat} (wf : ScatterDims.WF ⟨2, ![A, B]⟩ ⟨1, ![2]⟩ ⟨2, ![a, b]⟩ [0, 1] [] [0, 1] 0)

/-- The window start on the row axis is the index vector's component 0, read signed. -/
theorem start_zero (j : (⟨2, ![a, b]⟩ : Shape).Idx) (idx : IVec ⟨1, ![2]⟩ 32) :
    (dims A B a b wf).start j idx 0 = (idx (ix1 (0 : Fin 2))).toInt := by
  unfold ScatterDims.start
  rw [dif_pos (show (0 : Fin 2) ∈ ([0, 1] : List (Fin 2)) from by decide)]
  congr 2
  funext c; refine Fin.ext ?_
  match c with
  | ⟨0, _⟩ => rfl

/-- The window start on the column axis is the index vector's component 1, read signed. -/
theorem start_one (j : (⟨2, ![a, b]⟩ : Shape).Idx) (idx : IVec ⟨1, ![2]⟩ 32) :
    (dims A B a b wf).start j idx 1 = (idx (ix1 (1 : Fin 2))).toInt := by
  unfold ScatterDims.start
  rw [dif_pos (show (1 : Fin 2) ∈ ([0, 1] : List (Fin 2)) from by decide)]
  congr 2
  funext c; refine Fin.ext ?_
  match c with
  | ⟨0, _⟩ => rfl

/-- The window coordinate on the row axis is the update index's row. -/
theorem window_zero (j : (⟨2, ![a, b]⟩ : Shape).Idx) : (dims A B a b wf).window j 0 = (j 0).val := by
  unfold ScatterDims.window
  have hm : (0 : Fin 2) ∈ (dims A B a b wf).sKept :=
    (show (0 : Fin 2) ∈ (List.finRange 2).filter (· ∉ ([] : List (Fin 2))) from by decide)
  rw [dif_pos hm]
  rfl

/-- The window coordinate on the column axis is the update index's column. -/
theorem window_one (j : (⟨2, ![a, b]⟩ : Shape).Idx) : (dims A B a b wf).window j 1 = (j 1).val := by
  unfold ScatterDims.window
  have hm : (1 : Fin 2) ∈ (dims A B a b wf).sKept :=
    (show (1 : Fin 2) ∈ (List.finRange 2).filter (· ∉ ([] : List (Fin 2))) from by decide)
  rw [dif_pos hm]
  rfl

/-- WHERE AN UPDATE LANDS: with the index vector holding (r0, c0) and the block inside the operand, update index
    (p, q) lands on operand index (r0 + p, c0 + q); no update is dropped. -/
theorem resultIdx_eq {r0 c0 : Nat} (idx : IVec ⟨1, ![2]⟩ 32)
    (h0 : idx (ix1 (0 : Fin 2)) = BitVec.ofNat 32 r0) (h1 : idx (ix1 (1 : Fin 2)) = BitVec.ofNat 32 c0)
    (hr : r0 + a ≤ A) (hc : c0 + b ≤ B) (hA : A < 2 ^ 31) (hB : B < 2 ^ 31) (j : (⟨2, ![a, b]⟩ : Shape).Idx) :
    (dims A B a b wf).resultIdx? j idx =
      some (ix2 (⟨r0 + (j 0).val, by have := idx2_lt0 j; omega⟩ : Fin A) (⟨c0 + (j 1).val, by have := idx2_lt1 j; omega⟩ : Fin B)) := by
  have hj0 := idx2_lt0 j
  have hj1 := idx2_lt1 j
  have hs0 : (dims A B a b wf).start j idx 0 = (r0 : Int) := by
    rw [start_zero, h0]; exact toInt_ofNat_of_lt r0 (by omega)
  have hs1 : (dims A B a b wf).start j idx 1 = (c0 : Int) := by
    rw [start_one, h1]; exact toInt_ofNat_of_lt c0 (by omega)
  have hw0 := window_zero (A := A) (B := B) wf j
  have hw1 := window_one (A := A) (B := B) wf j
  have hin : ∀ a' : Fin 2, 0 ≤ (dims A B a b wf).start j idx a' + (dims A B a b wf).window j a' ∧
      (dims A B a b wf).start j idx a' + (dims A B a b wf).window j a' < (⟨2, ![A, B]⟩ : Shape).size a' := by
    refine Fin.forall_fin_two.2 ⟨?_, ?_⟩
    · rw [hs0, hw0]; show _ ∧ _ < ((A : Nat) : Int); omega
    · rw [hs1, hw1]; show _ ∧ _ < ((B : Nat) : Int); omega
  unfold ScatterDims.resultIdx?
  rw [dif_pos hin]
  congr 1
  funext a'
  refine Fin.ext ?_
  revert a'
  refine Fin.forall_fin_two.2 ⟨?_, ?_⟩
  · show ((dims A B a b wf).start j idx 0 + (dims A B a b wf).window j 0).toNat = r0 + (j 0).val
    rw [hs0, hw0]; omega
  · show ((dims A B a b wf).start j idx 1 + (dims A B a b wf).window j 1).toNat = c0 + (j 1).val
    rw [hs1, hw1]; omega

/-- THE BLOCK SET READ INSIDE THE RECTANGLE: at (r0 + p, c0 + q) the result is the update at (p, q) — that update is
    the only one landing there, since (p, q) ↦ (r0 + p, c0 + q) is injective. -/
theorem scatter_set_inside {r0 c0 : Nat} (x : (⟨2, ![A, B]⟩ : Shape).Idx → α) (idx : IVec ⟨1, ![2]⟩ 32)
    (u : (⟨2, ![a, b]⟩ : Shape).Idx → α)
    (h0 : idx (ix1 (0 : Fin 2)) = BitVec.ofNat 32 r0) (h1 : idx (ix1 (1 : Fin 2)) = BitVec.ofNat 32 c0)
    (hr : r0 + a ≤ A) (hc : c0 + b ≤ B) (hA : A < 2 ^ 31) (hB : B < 2 ^ 31) (p : Fin a) (q : Fin b) :
    Host.scatter (dims A B a b wf) (fun _ v => v) x idx u
        (ix2 (⟨r0 + p.val, by have := p.isLt; omega⟩ : Fin A) (⟨c0 + q.val, by have := q.isLt; omega⟩ : Fin B)) =
      u (ix2 p q) := by
  refine Host.scatter_apply_of_hit (dims A B a b wf) (fun _ v => v) (fun _ _ => rfl) x idx u _ (ix2 p q) ?_ ?_
  · exact resultIdx_eq wf idx h0 h1 hr hc hA hB (ix2 p q)
  · intro j' hj'
    rw [resultIdx_eq wf idx h0 h1 hr hc hA hB j'] at hj'
    have e := Option.some.inj hj'
    have e0 : r0 + (j' 0).val = r0 + p.val := congrArg Fin.val (congrFun e 0)
    have e1 : c0 + (j' 1).val = c0 + q.val := congrArg Fin.val (congrFun e 1)
    have f0 : j' 0 = p := Fin.ext (by omega)
    have f1 : j' 1 = q := Fin.ext (by omega)
    funext a'
    revert a'
    exact Fin.forall_fin_two.2 ⟨f0, f1⟩

/-- THE BLOCK SET READ OUTSIDE THE RECTANGLE: at an operand index outside rows r0 … r0 + a − 1 or columns
    c0 … c0 + b − 1 no update lands, and the result is the operand. -/
theorem scatter_set_outside {r0 c0 : Nat} (x : (⟨2, ![A, B]⟩ : Shape).Idx → α) (idx : IVec ⟨1, ![2]⟩ 32)
    (u : (⟨2, ![a, b]⟩ : Shape).Idx → α)
    (h0 : idx (ix1 (0 : Fin 2)) = BitVec.ofNat 32 r0) (h1 : idx (ix1 (1 : Fin 2)) = BitVec.ofNat 32 c0)
    (hr : r0 + a ≤ A) (hc : c0 + b ≤ B) (hA : A < 2 ^ 31) (hB : B < 2 ^ 31) (i : (⟨2, ![A, B]⟩ : Shape).Idx)
    (hi : ¬ (r0 ≤ (i 0).val ∧ (i 0).val < r0 + a ∧ c0 ≤ (i 1).val ∧ (i 1).val < c0 + b)) :
    Host.scatter (dims A B a b wf) (fun _ v => v) x idx u i = x i := by
  refine Host.scatter_apply_of_miss (dims A B a b wf) (fun _ v => v) x idx u i ?_
  intro j hj
  rw [resultIdx_eq wf idx h0 h1 hr hc hA hB j] at hj
  have e := Option.some.inj hj
  have e0 : r0 + (j 0).val = (i 0).val := congrArg Fin.val (congrFun e 0)
  have e1 : c0 + (j 1).val = (i 1).val := congrArg Fin.val (congrFun e 1)
  have hj0 := idx2_lt0 j
  have hj1 := idx2_lt1 j
  exact hi (by omega)

end

/-! ## The index vector as a program builds it -/

/-- The length-2 index vector made by concatenating two splat scalars, each broadcast to a length-1 vector, holds
    the first scalar at position 0 … -/
theorem startWords_zero {v0 v1 : BitVec 32}
    (hb : (⟨0, ![]⟩ : Shape).BroadcastsInDim ⟨1, ![1]⟩ (![] : Fin 0 → Fin 1))
    (hcat : Shape.Concatenates [⟨1, ![1]⟩, ⟨1, ![1]⟩] ⟨1, ![2]⟩ 0) :
    concatenate (⟨1, ![2]⟩ : Shape) 0
        [⟨⟨1, ![1]⟩, broadcastInDim ⟨1, ![1]⟩ ![] hb (constantI ⟨0, ![]⟩ 32 v0)⟩,
         ⟨⟨1, ![1]⟩, broadcastInDim ⟨1, ![1]⟩ ![] hb (constantI ⟨0, ![]⟩ 32 v1)⟩] hcat (ix1 (0 : Fin 2)) = v0 := by
  rw [concatenate_pair_apply_left (t := ⟨1, ![2]⟩) (s₁ := ⟨1, ![1]⟩) (s₂ := ⟨1, ![1]⟩) (0 : Fin 1) _ _ hcat (ix1 (0 : Fin 2)) rfl (ix1 (0 : Fin 1))
    (fun b => by obtain rfl : b = 0 := Subsingleton.elim _ _; rfl)]
  rfl

/-- … and the second scalar at position 1. -/
theorem startWords_one {v0 v1 : BitVec 32}
    (hb : (⟨0, ![]⟩ : Shape).BroadcastsInDim ⟨1, ![1]⟩ (![] : Fin 0 → Fin 1))
    (hcat : Shape.Concatenates [⟨1, ![1]⟩, ⟨1, ![1]⟩] ⟨1, ![2]⟩ 0) :
    concatenate (⟨1, ![2]⟩ : Shape) 0
        [⟨⟨1, ![1]⟩, broadcastInDim ⟨1, ![1]⟩ ![] hb (constantI ⟨0, ![]⟩ 32 v0)⟩,
         ⟨⟨1, ![1]⟩, broadcastInDim ⟨1, ![1]⟩ ![] hb (constantI ⟨0, ![]⟩ 32 v1)⟩] hcat (ix1 (1 : Fin 2)) = v1 := by
  rw [concatenate_pair_apply_right (t := ⟨1, ![2]⟩) (s₁ := ⟨1, ![1]⟩) (s₂ := ⟨1, ![1]⟩) (0 : Fin 1) _ _ hcat (ix1 (1 : Fin 2)) rfl rfl (ix1 (0 : Fin 1))
    (fun b hb' => absurd (Subsingleton.elim _ _) hb') rfl]
  rfl

/-- Both components of that index vector. -/
theorem startWords {v0 v1 : BitVec 32}
    (hb : (⟨0, ![]⟩ : Shape).BroadcastsInDim ⟨1, ![1]⟩ (![] : Fin 0 → Fin 1))
    (hcat : Shape.Concatenates [⟨1, ![1]⟩, ⟨1, ![1]⟩] ⟨1, ![2]⟩ 0) :
    concatenate (⟨1, ![2]⟩ : Shape) 0
        [⟨⟨1, ![1]⟩, broadcastInDim ⟨1, ![1]⟩ ![] hb (constantI ⟨0, ![]⟩ 32 v0)⟩,
         ⟨⟨1, ![1]⟩, broadcastInDim ⟨1, ![1]⟩ ![] hb (constantI ⟨0, ![]⟩ 32 v1)⟩] hcat (ix1 (0 : Fin 2)) = v0 ∧
    concatenate (⟨1, ![2]⟩ : Shape) 0
        [⟨⟨1, ![1]⟩, broadcastInDim ⟨1, ![1]⟩ ![] hb (constantI ⟨0, ![]⟩ 32 v0)⟩,
         ⟨⟨1, ![1]⟩, broadcastInDim ⟨1, ![1]⟩ ![] hb (constantI ⟨0, ![]⟩ 32 v1)⟩] hcat (ix1 (1 : Fin 2)) = v1 :=
  ⟨startWords_zero hb hcat, startWords_one hb hcat⟩

end Idealize.ShloMosaic.BlockSet
-- ==== Proof.LibPackRows.lean ====
/-
  Two reads of layout operations used when rows are packed two by two.

  (a) A reshape between two rank-2 shapes keeps the row-major order of the elements: the result at `(j0, j1)` of a
      `C × D` array is the operand at the `(k0, k1)` of the `A × B` array with `k0 · B + k1 = j0 · D + j1`.
  (b) A vector `b` of length `n` written twice in a row gives a vector of length `n + n` that holds `b o` at the
      positions `o` and `n + o`; recast as a `1 × (n + n)` row it holds the same entries in its only row.
-/
import Idealize.ShloMosaic.Lib.Pipeline.Value
import Idealize.ShloMosaic.Lib.ValueIdx
import Idealize.ShloMosaic.Lib.ValueLayout

namespace Idealize.ShloMosaic.PackRows

open Idealize.ShloMosaic Idealize.ShloMosaic.ValueIdx

variable {α : Type}

/-- A reshape of an `A × B` array to a `C × D` array reads, at `j`, the operand at the index `k` with the same
    row-major position: `k0 · B + k1 = j0 · D + j1`. -/
theorem shapeCast_rank2_apply {A B C D : Nat} (x : (⟨2, ![A, B]⟩ : Shape).Idx → α)
    (h : (⟨2, ![A, B]⟩ : Shape).ShapeCasts ⟨2, ![C, D]⟩) (j : (⟨2, ![C, D]⟩ : Shape).Idx) (k : (⟨2, ![A, B]⟩ : Shape).Idx)
    (hk : (k 0).val * B + (k 1).val = (j 0).val * D + (j 1).val) :
    shapeCast ⟨2, ![C, D]⟩ x h j = x k :=
  shapeCast_apply x h j k (by
    rw [Shape.rowMajor_val_two, Shape.rowMajor_val_two]
    exact hk)

/-- A vector `b` of length `n` written twice in a row and recast as a `1 × N` row, `N = n + n`, holds `b o` at the
    position `h · n + o` of its row, for `h = 0` and `h = 1`. -/
theorem doubled_row_apply {n N : Nat} (hN : N = n + n) (b : (⟨1, ![n]⟩ : Shape).Idx → α)
    (hcat : Shape.Concatenates [⟨1, ![n]⟩, ⟨1, ![n]⟩] ⟨1, ![N]⟩ 0)
    (hcast : (⟨1, ![N]⟩ : Shape).ShapeCasts ⟨2, ![1, N]⟩) (h : Fin 2) (o : Fin n) (c : Fin N)
    (hc : c.val = h.val * n + o.val) :
    shapeCast ⟨2, ![1, N]⟩ (concatenate ⟨1, ![N]⟩ 0 [⟨⟨1, ![n]⟩, b⟩, ⟨⟨1, ![n]⟩, b⟩] hcat) hcast (ix2 (0 : Fin 1) c)
      = b (ix1 o) := by
  rw [shapeCast_a_1a_apply]
  rcases h with ⟨hv, hlt⟩
  rcases hv with _ | _ | hv
  · -- first copy: position `o`
    have hc0 : c.val = o.val := by
      rw [hc]
      show 0 * n + o.val = o.val
      rw [Nat.zero_mul, Nat.zero_add]
    exact concatenate_pair_apply_left 0 b b hcat (ix1 c) rfl (ix1 o) (fun d => by
      match d with
      | ⟨0, _⟩ =>
        show o.val = c.val
        exact hc0.symm)
  · -- second copy: position `n + o`
    have hc1 : c.val = n + o.val := by
      rw [hc]
      show (0 + 1) * n + o.val = n + o.val
      rw [Nat.zero_add, Nat.one_mul]
    exact concatenate_pair_apply_right 0 b b hcat (ix1 c) rfl rfl (ix1 o)
      (fun d hd => by
        match d, hd with
        | ⟨0, _⟩, hd => exact absurd rfl hd)
      (by
        show o.val + n = c.val
        rw [hc1, Nat.add_comm])
  · exact absurd hlt (by omega)

end Idealize.ShloMosaic.PackRows
-- ==== Proof.KernelEntryRead.lean ====
/-
  The launched arrays read at coordinates.

  Position `64 h + i` of packed row `k` is entry `i` of row `2k + h` of `x` (same row-major position); the bias row
  holds `b o` at positions `o` and `64 + o`; and the block-diagonal matrix holds `wt (i, o)` at
  `(64 h + i, 64 h + o)` and zero at `(64 h + i, 64 h' + o)` for `h ≠ h'`: the later block set, at (64, 64), covers
  exactly the entries with both coordinates at least 64, the earlier one, at (0, 0), those with both below 64, and an
  entry neither covers keeps the zero the matrix was filled with.
-/
import proofs.«123171_j58351425683886_2_alg».proof.Proof.KernelEntry
import proofs.«123171_j58351425683886_2_alg».proof.Proof.PackedDense
import proofs.«123171_j58351425683886_2_alg».proof.Proof.LibBlockSet
import proofs.«123171_j58351425683886_2_alg».proof.Proof.LibPackRows

noncomputable section

namespace Cert.KernelIdeal.Entry

open Cert.KernelIdeal Cert.KernelIdeal.Gen Idealize.ShloMosaic Idealize.ShloMosaic.ValueIdx
open Cert.PackedDense (half pairRow)

/-- Packed row `k`, position `64 h + i`, is row `2k + h`, entry `i`. -/
theorem xpOf_apply (x : FVec Ideal S2097152x64 .f32) (k : Fin 1048576) (h : Fin 2) (i : Fin 64) :
    xpOf x (ix2 k (half h i)) = x (ix2 (pairRow k h) i) := by
  unfold xpOf
  exact PackRows.shapeCast_rank2_apply x _ (ix2 k (half h i)) (ix2 (pairRow k h) i)
    (by show (2 * k.val + h.val) * 64 + i.val = k.val * 128 + (h.val * 64 + i.val); omega)

/-- The bias row at position `64 h' + o` is `b o`. -/
theorem bpOf_apply (b : FVec Ideal S64 .f32) (h' : Fin 2) (o : Fin 64) :
    bpOf b (ix2 (0 : Fin 1) (half h' o)) = b (ix1 o) := by
  unfold bpOf
  exact PackRows.doubled_row_apply rfl b _ _ h' o (half h' o) rfl

theorem start0 (v : BitVec 32) : startAt v (ix1 (0 : Fin 2)) = v := by
  unfold startAt
  exact BlockSet.startWords_zero bcast_S_S1 concatenates_S1_S1_S2_d0

theorem start1 (v : BitVec 32) : startAt v (ix1 (1 : Fin 2)) = v := by
  unfold startAt
  exact BlockSet.startWords_one bcast_S_S1 concatenates_S1_S1_S2_d0

/-- A block set at `(v, v)` read inside the block. -/
theorem set_inside (X : FVec Ideal S128x128 .f32) (wt : FVec Ideal S64x64 .f32) (r0 : Nat) (hr : r0 + 64 ≤ 128) (i o : Fin 64) :
    Host.scatter scatter_S128x128_S2_S64x64_01_n_01_0 (fun _ b => b) X (startAt (BitVec.ofNat 32 r0)) wt
      (ix2 (⟨r0 + i.val, by have := i.isLt; omega⟩ : Fin 128) (⟨r0 + o.val, by have := o.isLt; omega⟩ : Fin 128)) = wt (ix2 i o) :=
  BlockSet.scatter_set_inside scatter_S128x128_S2_S64x64_01_n_01_0_wf X (startAt (BitVec.ofNat 32 r0)) wt (start0 _) (start1 _)
    hr hr (by omega) (by omega) i o

/-- A block set at `(v, v)` read outside the block. -/
theorem set_outside (X : FVec Ideal S128x128 .f32) (wt : FVec Ideal S64x64 .f32) (r0 : Nat) (hr : r0 + 64 ≤ 128) (j : S128x128.Idx)
    (hj : ¬ (r0 ≤ (j 0).val ∧ (j 0).val < r0 + 64 ∧ r0 ≤ (j 1).val ∧ (j 1).val < r0 + 64)) :
    Host.scatter scatter_S128x128_S2_S64x64_01_n_01_0 (fun _ b => b) X (startAt (BitVec.ofNat 32 r0)) wt j = X j :=
  BlockSet.scatter_set_outside scatter_S128x128_S2_S64x64_01_n_01_0_wf X (startAt (BitVec.ofNat 32 r0)) wt (start0 _) (start1 _)
    hr hr (by omega) (by omega) j hj

/-- The block-diagonal matrix: `wt` on the two diagonal blocks, zero off them. -/
theorem wbOf_apply (wt : FVec Ideal S64x64 .f32) (h h' : Fin 2) (i o : Fin 64) :
    wbOf wt (ix2 (half h i) (half h' o)) = if h = h' then wt (ix2 i o) else 0 := by
  have hi := i.isLt
  have ho := o.isLt
  have c2 : ∀ g : Fin 2, g = 0 ∨ g = 1 := fun g => by
    rcases g with ⟨v, hv⟩
    rcases v with _ | _ | v
    · exact Or.inl rfl
    · exact Or.inr rfl
    · omega
  unfold wbOf
  rcases c2 h with rfl | rfl <;> rcases c2 h' with rfl | rfl
  · -- both coordinates below 64: the later set misses, the earlier one hits
    rw [if_pos rfl]
    refine (set_outside _ wt 64 (by omega) _ (by show ¬ (64 ≤ 0 * 64 + i.val ∧ _); omega)).trans ?_
    have e : ix2 (half 0 i) (half 0 o) = ix2 (⟨0 + i.val, by omega⟩ : Fin 128) (⟨0 + o.val, by omega⟩ : Fin 128) :=
      congrArg₂ (ix2 (n0 := 128) (n1 := 128)) (Fin.ext (by show 0 * 64 + i.val = 0 + i.val; omega)) (Fin.ext (by show 0 * 64 + o.val = 0 + o.val; omega))
    rw [e]
    exact set_inside _ wt 0 (by omega) i o
  · -- row below 64, column from 64 on: both sets miss
    rw [if_neg (by decide)]
    refine (set_outside _ wt 64 (by omega) _ (by show ¬ (64 ≤ 0 * 64 + i.val ∧ _); omega)).trans ?_
    refine (set_outside _ wt 0 (by omega) _ (by show ¬ (0 ≤ 0 * 64 + i.val ∧ 0 * 64 + i.val < 0 + 64 ∧ 0 ≤ 1 * 64 + o.val ∧ 1 * 64 + o.val < 0 + 64); omega)).trans ?_
    show Ideal.ofBits .f32 0x00000000#32 = 0
    exact Ideal.ofBits_zero_f32
  · -- row from 64 on, column below 64: both sets miss
    rw [if_neg (by decide)]
    refine (set_outside _ wt 64 (by omega) _ (by show ¬ (64 ≤ 1 * 64 + i.val ∧ 1 * 64 + i.val < 64 + 64 ∧ 64 ≤ 0 * 64 + o.val ∧ _); omega)).trans ?_
    refine (set_outside _ wt 0 (by omega) _ (by show ¬ (0 ≤ 1 * 64 + i.val ∧ 1 * 64 + i.val < 0 + 64 ∧ _); omega)).trans ?_
    show Ideal.ofBits .f32 0x00000000#32 = 0
    exact Ideal.ofBits_zero_f32
  · -- both coordinates from 64 on: the later set hits
    rw [if_pos rfl]
    have e : ix2 (half 1 i) (half 1 o) = ix2 (⟨64 + i.val, by omega⟩ : Fin 128) (⟨64 + o.val, by omega⟩ : Fin 128) :=
      congrArg₂ (ix2 (n0 := 128) (n1 := 128)) (Fin.ext (by show 1 * 64 + i.val = 64 + i.val; omega)) (Fin.ext (by show 1 * 64 + o.val = 64 + o.val; omega))
    rw [e]
    exact set_inside _ wt 64 (by omega) i o

end Cert.KernelIdeal.Entry

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.KernelBlocks.lean ====
/-
  The kernel's output array, block by block and whole.

  Grid point `t` (of 64) loads rows `16384 t … 16384 t + 16383` of the packed array, the whole 128 × 128 matrix and
  the whole bias row, and stores, at entry `(p, q)` of its output block, `∑ j, xblock (p, j) · w (j, q) + brow (0, q)`
  — the matrix unit's product into a zero accumulator is the plain sum over the 128 contraction positions, and the
  bias row is broadcast down the rows. So what point `t` writes back is rows `16384 t …` of the packed layer of the
  three launched arrays; the 64 blocks tile the 1048576 rows (row `r` lies in block `r / 16384`), hence the output
  array ends at the packed layer.
-/
import proofs.«123171_j58351425683886_2_alg».proof.Proof.Gen.KernelIdeal.Frame
import proofs.«123171_j58351425683886_2_alg».proof.Proof.PackedDense
import proofs.«123171_j58351425683886_2_alg».proof.Proof.LibPlainProduct
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.PackedDense (packed)

theorem hz : (![0, 0] : Fin 2 → Nat) = fun _ => 0 := funext fun a => by fin_cases a <;> rfl

/-- The packed layer at entry `(k, c)`. -/
theorem packed_apply (xp : FVec Ideal ⟨2, ![1048576, 128]⟩ .f32) (wb : FVec Ideal ⟨2, ![128, 128]⟩ .f32) (bp : FVec Ideal ⟨2, ![1, 128]⟩ .f32)
    (k : Fin 1048576) (c : Fin 128) :
    packed xp wb bp (ix2 k c) = (∑ j : Fin 128, xp (ix2 k j) * wb (ix2 j c)) + bp (ix2 (0 : Fin 1) c) := rfl

/-- The body's stored value at entry `(p, q)`: the row-by-column sum plus the bias row's entry. -/
theorem pay_apply (x0 : FVec Ideal S16384x128 .f32) (x1 : FVec Ideal S128x128 .f32) (x2 : FVec Ideal S1x128 .f32) (p : Fin 16384) (q : Fin 128) :
    k0_pay1 (F := Ideal) x0 x1 x2 (ix2 p q) = (∑ j : Fin 128, x0 (ix2 p j) * x1 (ix2 j q)) + x2 (ix2 (0 : Fin 1) q) := by
  unfold k0_pay1
  simp only [shapeCast_self]
  show FloatOps.matmul (DotDims.plain 16384 128 128) none x0 x1 (constant ⟨2, ![16384, 128]⟩ .f32 0x00000000#32) (ix2 p q)
      + broadcastTo S16384x128 x2 broadcasts_S1x128_S16384x128 (ix2 p q) = _
  rw [PlainProduct.matmul_zero_plain none x0 x1, PlainProduct.rowsByCols_apply]
  refine congrArg (fun z => (∑ j : Fin 128, x0 (ix2 p j) * x1 (ix2 j q)) + z) ?_
  exact broadcastTo_apply x2 broadcasts_S1x128_S16384x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The printed index maps over the grid: the packed array's and the output's blocks move with the point, the matrix and
    the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `16384 t + p` of the packed array: row `p` of block `t`. -/
def blockRow (t : Fin grid0.N) (p : Fin 16384) : Fin 1048576 :=
  ⟨t.val * 16384 + p.val, by have := t.isLt; have := p.isLt; have hN : grid0.N = 64 := N_0; omega⟩

variable (m : (ℓ : Loc nD τ sig) → Buf (Elt Ideal) ℓ)

theorem iblk0_apply (c : Dev nD) (t : Fin cfg0.N) (p : Fin 16384) (j : Fin 128) :
    iblk m c 0 t (ix2 p j) = V m c main_v27 (ix2 (blockRow t p) j) := by
  obtain ⟨e00, e01, -⟩ := idx_facts t
  show V m c main_v27 (((cfg0.win 0).blk t).view.emb (ix2 p j)) = V m c main_v27 (ix2 (blockRow t p) j)
  refine congrArg (V m c main_v27) (funext fun a => Fin.ext ?_)
  match a with
  | ⟨0, _⟩ => show win0_0.index t (0 : Fin 2) * 16384 + 1 * p.val = t.val * 16384 + p.val; omega
  | ⟨1, _⟩ => show win0_0.index t (1 : Fin 2) * 128 + 1 * j.val = j.val; omega

theorem iblk1_apply (c : Dev nD) (t : Fin cfg0.N) (j q : Fin 128) :
    iblk m c 1 t (ix2 j q) = V m c main_v24 (ix2 j q) := by
  obtain ⟨-, -, e10, e11, -⟩ := idx_facts t
  show V m c main_v24 (((cfg0.win 1).blk t).view.emb (ix2 j q)) = V m c main_v24 (ix2 j q)
  refine congrArg (V m c main_v24) (funext fun a => Fin.ext ?_)
  match a with
  | ⟨0, _⟩ => show win0_1.index t (0 : Fin 2) * 128 + 1 * j.val = j.val; omega
  | ⟨1, _⟩ => show win0_1.index t (1 : Fin 2) * 128 + 1 * q.val = q.val; omega

theorem iblk2_apply (c : Dev nD) (t : Fin cfg0.N) (q : Fin 128) :
    iblk m c 2 t (ix2 (0 : Fin 1) q) = V m c main_v26 (ix2 (0 : Fin 1) q) := by
  obtain ⟨-, -, -, -, e20, e21, -⟩ := idx_facts t
  show V m c main_v26 (((cfg0.win 2).blk t).view.emb (ix2 (0 : Fin 1) q)) = V m c main_v26 (ix2 (0 : Fin 1) q)
  refine congrArg (V m c main_v26) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

theorem emb3_apply (t : Fin cfg0.N) (p : Fin 16384) (q : Fin 128) :
    ((cfg0.win 3).blk t).view.emb (ix2 p q) = ix2 (blockRow t p) q := by
  obtain ⟨-, -, -, -, -, -, e30, e31⟩ := idx_facts t
  refine funext fun a => Fin.ext ?_
  match a with
  | ⟨0, _⟩ => show win0_3.index t (0 : Fin 2) * 16384 + 1 * p.val = t.val * 16384 + p.val; omega
  | ⟨1, _⟩ => show win0_3.index t (1 : Fin 2) * 128 + 1 * q.val = q.val; omega

/-- What point `t` writes back is block `t` of the packed layer of the launched arrays. -/
theorem flushed3_eq (c : Dev nD) (t : Fin cfg0.N) :
    (dats m 0 c).flushed 3 t = ((cfg0.win 3).blk t).view.read (Elt Ideal) (packed (V m c main_v27) (V m c main_v24) (V m c main_v26)) := by
  show (cfg0.win 3).cut (grid0.coords t) ((dats m 0 c).after 3 t) = _
  rw [after0_3]
  unfold out0_3
  rw [View.canon_unit_zero hz]
  simp only [View.ld_unit_zero (S := S16384x128) hz, View.ld_unit_zero (S := S128x128) hz, View.ld_unit_zero (S := S1x128) hz]
  funext y
  obtain ⟨p, q, rfl⟩ : ∃ (p : Fin 16384) (q : Fin 128), y = ix2 p q := ⟨y 0, y 1, eq_ix2 y⟩
  show k0_pay1 (F := Ideal) (iblk m c 0 t) (iblk m c 1 t) (iblk m c 2 t) (ix2 p q)
    = packed (V m c main_v27) (V m c main_v24) (V m c main_v26) (((cfg0.win 3).blk t).view.emb (ix2 p q))
  refine (pay_apply (iblk m c 0 t) (iblk m c 1 t) (iblk m c 2 t) p q).trans ?_
  rw [emb3_apply t p q]
  refine Eq.trans ?_ (packed_apply _ _ _ (blockRow t p) q).symm
  refine congrArg₂ (· + ·) (Finset.sum_congr rfl fun j _ => ?_) (iblk2_apply m c t q)
  rw [iblk0_apply m c t p j, iblk1_apply m c t j q]

/-- An index of the output array is in point `t`'s block iff each coordinate is in the block's range on its axis. -/
theorem mem_blk3 (t : Fin cfg0.N) (i : S1048576x128.Idx) :
    i ∈ ((cfg0.win 3).blk t).view.set ↔ ∀ a : Fin 2, win0_3.index t a * S16384x128.size a ≤ (i a).val ∧ (i a).val < win0_3.index t a * S16384x128.size a + S16384x128.size a := by
  show i ∈ ((View.whole main_v28).slice (win0_3.rect t)).set ↔ _
  rw [View.set_slice_whole, Rect.mem_set_unit]
  exact Iff.rfl

/-- Every row lies in a block: row `r` in block `r / 16384`. -/
theorem cover3 (i : S1048576x128.Idx) : ∃ t : Fin cfg0.N, (cfg0.win 3).flush t = true ∧ i ∈ ((cfg0.win 3).blk t).view.set := by
  have hi0 : (i 0).val < 1048576 := (i 0).isLt
  have hi1 : (i 1).val < 128 := (i 1).isLt
  have hN : grid0.N = 64 := N_0
  have ht : (i 0).val / 16384 < grid0.N := by omega
  obtain ⟨-, -, -, -, -, -, e30, e31⟩ := idx_facts (⟨(i 0).val / 16384, ht⟩ : Fin grid0.N)
  have e30' : win0_3.index (⟨(i 0).val / 16384, ht⟩ : Fin grid0.N) (0 : Fin 2) = (i 0).val / 16384 := e30
  refine ⟨(⟨(i 0).val / 16384, ht⟩ : Fin grid0.N), flush0_3 _, ?_⟩
  rw [mem_blk3]
  intro a
  match a with
  | ⟨0, _⟩ =>
    show win0_3.index (⟨(i 0).val / 16384, ht⟩ : Fin grid0.N) (0 : Fin 2) * 16384 ≤ (i 0).val
      ∧ (i 0).val < win0_3.index (⟨(i 0).val / 16384, ht⟩ : Fin grid0.N) (0 : Fin 2) * 16384 + 16384
    omega
  | ⟨1, _⟩ =>
    show win0_3.index (⟨(i 0).val / 16384, ht⟩ : Fin grid0.N) (1 : Fin 2) * 128 ≤ (i 1).val
      ∧ (i 1).val < win0_3.index (⟨(i 0).val / 16384, ht⟩ : Fin grid0.N) (1 : Fin 2) * 128 + 128
    omega

/-- The output array after the run is the packed layer of the launched arrays. -/
theorem final3 (c : Dev nD) : (dats m 0 c).arrAt 3 cfg0.N = packed (V m c main_v27) (V m c main_v24) (V m c main_v26) :=
  (dats m 0 c).arrAt_eq_of_cover 3 (packed (V m c main_v27) (V m c main_v24) (V m c main_v26)) (fun t _ => flushed3_eq m c t) cover3

end Cert.KernelIdeal.Blocks

end
-- ==== Proof.PackedResult.lean ====
/-
  The packed layer, recast to 2097152 rows of 64, is the dense layer.

  Recasting keeps the row-major position: entry `(r, o)` of the recast array is entry `(r / 2, 64 (r % 2) + o)` of
  the packed one, which is the dense layer's entry `(2 (r / 2) + r % 2, o) = (r, o)`.
-/
import proofs.«123171_j58351425683886_2_alg».proof.Proof.PackedDense
import proofs.«123171_j58351425683886_2_alg».proof.Proof.LibPackRows

noncomputable section

namespace Cert.PackedDense

open Idealize.ShloMosaic Idealize.ShloMosaic.ValueIdx

/-- The recast packed layer is the dense layer, entry by entry. -/
theorem unpack_eq_dense (x : FVec Ideal ⟨2, ![2097152, 64]⟩ .f32) (wt : FVec Ideal ⟨2, ![64, 64]⟩ .f32) (b : FVec Ideal ⟨1, ![64]⟩ .f32)
    (xp : FVec Ideal ⟨2, ![1048576, 128]⟩ .f32) (wb : FVec Ideal ⟨2, ![128, 128]⟩ .f32) (bp : FVec Ideal ⟨2, ![1, 128]⟩ .f32)
    (hx : ∀ (k : Fin 1048576) (h : Fin 2) (i : Fin 64), xp (ix2 k (half h i)) = x (ix2 (pairRow k h) i))
    (hw : ∀ (h h' : Fin 2) (i o : Fin 64), wb (ix2 (half h i) (half h' o)) = if h = h' then wt (ix2 i o) else 0)
    (hb : ∀ (h' : Fin 2) (o : Fin 64), bp (ix2 (0 : Fin 1) (half h' o)) = b (ix1 o))
    (hc : (⟨2, ![1048576, 128]⟩ : Shape).ShapeCasts ⟨2, ![2097152, 64]⟩) :
    shapeCast ⟨2, ![2097152, 64]⟩ (packed xp wb bp) hc = dense x wt b := by
  funext i
  obtain ⟨r, o, rfl⟩ : ∃ (r : Fin 2097152) (o : Fin 64), i = ix2 r o := ⟨i 0, i 1, eq_ix2 i⟩
  have hr := r.isLt
  have ho := o.isLt
  refine (PackRows.shapeCast_rank2_apply (packed xp wb bp) hc (ix2 r o)
    (ix2 (⟨r.val / 2, by omega⟩ : Fin 1048576) (half (⟨r.val % 2, by omega⟩ : Fin 2) o))
    (by show (r.val / 2) * 128 + ((r.val % 2) * 64 + o.val) = r.val * 64 + o.val; omega)).trans ?_
  rw [packed_eq_dense x wt b xp wb bp hx hw hb]
  exact congrArg (fun r' => dense x wt b (ix2 r' o)) (Fin.ext (by show 2 * (r.val / 2) + r.val % 2 = r.val; omega))

end Cert.PackedDense

end
-- ==== Proof.KernelRun.lean ====
/-
  The kernel program's run, read: its result is the dense layer.

  After the region the program recasts the 1048576 × 128 output array to 2097152 × 64. The output array is the packed
  layer of the three launched arrays; these are the rows of `x` two by two, the block-diagonal matrix of the
  transposed effective weight, and the bias twice; so the recast array is the dense layer of `x`, that weight and the
  bias.
-/
import proofs.«123171_j58351425683886_2_alg».proof.Proof.KernelEntryRead
import proofs.«123171_j58351425683886_2_alg».proof.Proof.KernelBlocks
import proofs.«123171_j58351425683886_2_alg».proof.Proof.PackedResult

noncomputable section

namespace Cert.KernelIdeal.Run

open Cert.KernelIdeal Cert.KernelIdeal.Gen Idealize.ShloMosaic Idealize.ShloMosaic.TcCoe Idealize.SL.Sem Idealize.ShloMosaic.StableHlo
open Cert.PackedDense (dense packed)

variable (m : (ℓ : Loc nD τ sig) → Buf (Elt Ideal) ℓ) (ρ : Dev nD → PrngReg)

/-- The host line after the region: the program's result is the output array recast. -/
theorem tail_eq (c : Dev nD) : (Pipeline.afterTail₀ cfgs (dats m) 0 (V0 m) [hostOps1] c main_v29 : S2097152x64.Idx → EReal)
    = shapeCast S2097152x64 ((dats m 0 c).arrAt 3 cfg0.N) shapeCasts_S1048576x128_S2097152x64 := by
  unfold Pipeline.afterTail₀
  show StableHlo.after hostOps1 _ (Proc.devRef .tc main_v29) = _
  after_results
  rw [Pipeline.withArrays_arr spec0 launch0.win.arr_inj c _ _ 3]
  rfl

/-- The program's result is the dense layer of its arguments. -/
theorem result_eq (c : Dev nD) : (Pipeline.afterTail₀ cfgs (dats m) 0 (V0 m) [hostOps1] c main_v29 : S2097152x64.Idx → EReal)
    = dense (m ((c : Thread nD τ).loc main_arg0))
        (Entry.wtOf (m ((c : Thread nD τ).loc main_arg1)) (m ((c : Thread nD τ).loc main_arg3)) (m ((c : Thread nD τ).loc main_arg4)))
        (m ((c : Thread nD τ).loc main_arg2)) := by
  rw [tail_eq, Blocks.final3, Entry.V_v27, Entry.V_v24, Entry.V_v26]
  exact Cert.PackedDense.unpack_eq_dense _ _ _ _ _ _ (Entry.xpOf_apply _) (Entry.wbOf_apply _) (Entry.bpOf_apply _)
    shapeCasts_S1048576x128_S2097152x64

/-- Every weakly fair execution of the kernel program terminates with the result at the dense layer of the arguments
    and the arguments unchanged. -/
theorem run : θ_run defs (onTc (τ := τ) (main (F := Ideal))) ⟨m, fun _ => 0, ρ⟩ (fun r => ∀ c : Dev nD,
      r.2.mem ((c.tc : Thread nD τ).loc main_v29) = dense (m ((c.tc : Thread nD τ).loc main_arg0))
        (Entry.wtOf (m ((c.tc : Thread nD τ).loc main_arg1)) (m ((c.tc : Thread nD τ).loc main_arg3)) (m ((c.tc : Thread nD τ).loc main_arg4)))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v29 (Pipeline.mem_restRefs_of main_v29 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Run

end
-- ==== Proof.RefDense.lean ====
/-
  The reference program's result is the dense layer.

  The reference computes a matrix product of the input `x0` (2097152 rows of 64 entries) with a 64 × 64 matrix,
  then adds the bias vector `x2` broadcast along the rows. Entry `(r, o)` of the product is
  `∑ k, x0 (r, k) · w (k, o)`, and the broadcast bias at `(r, o)` is `x2 o`; so the result is the dense layer of
  `x0`, the matrix `w` and the bias `x2`. The matrix `w` is the reference's own (transposed, masked and scaled)
  weight; it is kept as one term on both sides.
-/
import proofs.«123171_j58351425683886_2_alg».proof.Proof.Gen.ReferenceIdeal.Read
import proofs.«123171_j58351425683886_2_alg».proof.Proof.PackedDense

noncomputable section

open scoped BigOperators

namespace Cert.ReferenceIdeal.RefDense

open Cert.ReferenceIdeal Cert.ReferenceIdeal.Gen Idealize.ShloMosaic Idealize.ShloMosaic.TcCoe Idealize.SL.Sem Idealize.ShloMosaic.StableHlo
open Idealize.ShloMosaic.ValueIdx

/-- The left operand of the product is read at row `i 0`, column `k`. -/
theorem lidx_eq (i : S2097152x64.Idx) (k : Fin 64) : Read.lidx_main_v16 i k = ix2 (i 0) k :=
  funext fun a => Fin.ext (by match a with | ⟨0, _⟩ => rfl | ⟨1, _⟩ => rfl)

/-- The right operand of the product is read at row `k`, column `i 1`. -/
theorem ridx_eq (i : S2097152x64.Idx) (k : Fin 64) : Read.ridx_main_v16 i k = ix2 k (i 1) :=
  funext fun a => Fin.ext (by match a with | ⟨0, _⟩ => rfl | ⟨1, _⟩ => rfl)

/-- The bias, broadcast first to a 1 × 64 row and then along the rows, is read at the column `i 1`. -/
theorem bidx_eq (i : S2097152x64.Idx) : Read.idx_main_v17 (Read.idx_main_v18 i) = ix1 (i 1) :=
  funext fun a => Fin.ext (by match a with | ⟨0, _⟩ => rfl)

/-- The reference's result is the dense layer of the input, the reference's weight matrix and the bias:
    entry `(r, o)` is `∑ k, x0 (r, k) · w (k, o) + x2 o`. -/
theorem result_eq_dense (x0 : (⟨S2097152x64, .f32⟩ : BufTy).Contents (Elt Ideal)) (x1 : (⟨S64x64, .f32⟩ : BufTy).Contents (Elt Ideal)) (x2 x3 : (⟨S64, .f32⟩ : BufTy).Contents (Elt Ideal)) (x4 : (⟨S64, .i32⟩ : BufTy).Contents (Elt Ideal)) :
    Cert.ReferenceIdeal.Read.val_main_v19 (F := Ideal) x0 x1 x2 x3 x4 = Cert.PackedDense.dense x0 (Cert.ReferenceIdeal.Read.val_main_v15 (F := Ideal) x1 x3 x4) x2 := by
  funext i
  rw [Read.val_main_v19_apply, Read.val_main_v16_apply, Read.val_main_v18_apply, Read.val_main_v17_apply]
  show (∑ k : Fin 64, x0 (Read.lidx_main_v16 i k) * (Read.val_main_v15 (F := Ideal) x1 x3 x4) (Read.ridx_main_v16 i k))
      + x2 (Read.idx_main_v17 (Read.idx_main_v18 i))
    = (∑ k : Fin 64, x0 (ix2 (i 0) k) * (Read.val_main_v15 (F := Ideal) x1 x3 x4) (ix2 k (i 1))) + x2 (ix1 (i 1))
  rw [bidx_eq]
  simp only [lidx_eq, ridx_eq]
  rfl

end Cert.ReferenceIdeal.RefDense

end
-- ==== Proof.lean ====
/-
  The kernel and its reference compute the same dense layer on the extended reals.

  Both programs first form the same 64 × 64 matrix `wt` from the weight, the signs and the permutation (a column
  gather by the clipped permutation, a scaling by the signs, a mask where the permutation holds the zero code, a
  transpose) — one term, opened on neither side. The reference then returns `x · wt + bias`, entry `(r, o)` being
  `∑ k, x (r, k) · wt (k, o) + bias o`. The kernel packs the rows of `x` two by two into rows of 128, multiplies by the
  128 × 128 matrix carrying `wt` on its two diagonal blocks and zero elsewhere, adds the bias written twice, and
  recasts the result to rows of 64. Entry `(r, o)` of that is the same sum: the half of each packed row that belongs
  to the other unpacked row meets only zeros of the matrix, and on the extended reals `a · 0 = 0` for every `a`, so no
  entry needs to be finite. The kernel's idealization rewrote nothing, so it is preserved trivially; each program's
  frame is its run with the result dropped.
-/
import proofs.«123171_j58351425683886_2_alg».proof.Defs
import proofs.«123171_j58351425683886_2_alg».proof.Proof.Gen.Kernel
import proofs.«123171_j58351425683886_2_alg».proof.Proof.Gen.Kernel.Frame
import proofs.«123171_j58351425683886_2_alg».proof.Proof.Gen.KernelIdeal
import proofs.«123171_j58351425683886_2_alg».proof.Proof.Gen.KernelIdeal.Frame
import proofs.«123171_j58351425683886_2_alg».proof.Proof.Gen.ReferenceIdeal
import proofs.«123171_j58351425683886_2_alg».proof.Proof.Gen.Pre_finite_inputs
import proofs.«123171_j58351425683886_2_alg».proof.Proof.Gen.ReferenceIdeal.Run
import proofs.«123171_j58351425683886_2_alg».proof.Proof.Gen.ReferenceIdeal.Read
import proofs.«123171_j58351425683886_2_alg».proof.Proof.KernelRun
import proofs.«123171_j58351425683886_2_alg».proof.Proof.RefDense
import Idealize.ShloMosaic.Adequacy
import Idealize.ShloMosaic.Init

noncomputable section

namespace Cert.Proof

open Idealize.ShloMosaic Idealize.ShloMosaic.TcCoe Idealize.SL.Sem

/-- The two programs' matrices are one term: the same operations on the same arguments. -/
theorem weight_eq (x1 : FVec Ideal Cert.KernelIdeal.S64x64 .f32) (x3 : FVec Ideal Cert.KernelIdeal.S64 .f32) (x4 : IVec Cert.KernelIdeal.S64 32) :
    Cert.ReferenceIdeal.Read.val_main_v15 (F := Ideal) x1 x3 x4 = Cert.KernelIdeal.Entry.wtOf x1 x3 x4 := by
  unfold Cert.ReferenceIdeal.Read.val_main_v15 Cert.ReferenceIdeal.Read.val_main_v14 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_call0_v4 Cert.ReferenceIdeal.Read.val_main_call0_v3
    Cert.ReferenceIdeal.Read.val_main_call0_v2 Cert.ReferenceIdeal.Read.val_main_call0_v1 Cert.ReferenceIdeal.Read.val_main_call0_v0
    Cert.ReferenceIdeal.Read.val_main_call1_v2 Cert.ReferenceIdeal.Read.val_main_call1_v1 Cert.ReferenceIdeal.Read.val_main_call1_v0
    Cert.ReferenceIdeal.Read.val_main_v13 Cert.ReferenceIdeal.Read.val_main_v12 Cert.ReferenceIdeal.Read.val_main_v11
    Cert.ReferenceIdeal.Read.val_main_cst Cert.ReferenceIdeal.Read.val_main_c Cert.ReferenceIdeal.Read.val_main_c_0
    Cert.ReferenceIdeal.Read.val_main_c_1 Cert.ReferenceIdeal.Read.val_main_c_2 Cert.ReferenceIdeal.Read.val_main_c_3
    Cert.KernelIdeal.Entry.wtOf
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the dense layer of the arguments and the one matrix. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v19_eq, Cert.ReferenceIdeal.RefDense.result_eq_dense, weight_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
